-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S288x256x256 : Shape := ⟨3, ![288, 256, 256]⟩
abbrev S_ : Shape := ⟨0, ![]⟩

class Facts : Prop where
  bcast_S_S288x256x256 : S_.BroadcastsInDim S288x256x256 (![] : Fin 0 → Fin S288x256x256.rank)
  reducesTo_S288x256x256_S_d0_1_2 : S288x256x256.ReducesTo [0, 1, 2] S_
  h_S_ : 0 < S_.numel

variable [Facts]

def fn {F : FTy → Type} [FloatOps F] (main_arg0 : FVec F S288x256x256 .f32) : IVec S_ 1 :=
  let main_v0 : FVec F S288x256x256 .f32 := Host.absf main_arg0
  let main_cst : FVec F S_ .f32 := constant S_ .f32 0x7F800000#32
  let main_v1 : FVec F S288x256x256 .f32 := broadcastInDim S288x256x256 ![] bcast_S_S288x256x256 main_cst
  let main_v2 : IVec S288x256x256 1 := cmpf .olt main_v0 main_v1
  let main_c : IVec S_ 1 := constantI S_ 1 1#1
  let main_v3 : IVec S_ 1 := (fun x v => Host.reduce IntOp.andi x v reducesTo_S288x256x256_S_d0_1_2 h_S_) main_v2 main_c
  main_v3
-- ==== Kernel.lean ====
abbrev S288x256x256 : Shape := ⟨3, ![288, 256, 256]⟩
abbrev S288x9x256x256 : Shape := ⟨4, ![288, 9, 256, 256]⟩
abbrev S6x256x256 : Shape := ⟨3, ![6, 256, 256]⟩
abbrev S6x9x256x256 : Shape := ⟨4, ![6, 9, 256, 256]⟩
abbrev S6x258x258 : Shape := ⟨3, ![6, 258, 258]⟩
abbrev S6x1x256x256 : Shape := ⟨4, ![6, 1, 256, 256]⟩
abbrev S2592x256x256 : Shape := ⟨3, ![2592, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S288x256x256, .f32⟩
  | .hbm, ⟨1, _⟩ => ⟨S288x9x256x256, .f32⟩
  | .hbm, ⟨2, _⟩ => ⟨S2592x256x256, .f32⟩
  | .local _ .vmem, ⟨0, _⟩ => ⟨S6x256x256, .f32⟩
  | .local _ .vmem, ⟨1, _⟩ => ⟨S6x256x256, .f32⟩
  | .local _ .vmem, ⟨2, _⟩ => ⟨S6x9x256x256, .f32⟩
  | .local _ .vmem, ⟨3, _⟩ => ⟨S6x9x256x256, .f32⟩
  | .local _ .vmem, ⟨4, _⟩ => ⟨S6x258x258, .f32⟩
  | _, _ => ⟨S288x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S6x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x9x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S6x258x258_S6x258x258_0_0_0 : ∀ a, (![0, 0, 0] : Fin 3 → Nat) a + S6x258x258.size a ≤ S6x258x258.size a
  h_S6x258x258 : 0 < S6x258x258.numel
  shapeCasts_S6x258x258_S6x258x258 : S6x258x258.ShapeCasts S6x258x258
  inb_S6x256x256_S6x256x256_0_0_0 : ∀ a, (![0, 0, 0] : Fin 3 → Nat) a + S6x256x256.size a ≤ S6x256x256.size a
  h_S6x256x256 : 0 < S6x256x256.numel
  inb_S6x258x258_S6x256x256_0_1_1 : ∀ a, (![0, 1, 1] : Fin 3 → Nat) a + S6x256x256.size a ≤ S6x258x258.size a
  shapeCasts_S6x256x256_S6x256x256 : S6x256x256.ShapeCasts S6x256x256
  inb_S6x258x258_S6x256x256_0_0_0 : ∀ a, (![0, 0, 0] : Fin 3 → Nat) a + S6x256x256.size a ≤ S6x258x258.size a
  inb_S6x9x256x256_S6x1x256x256_0_0_0_0 : ∀ a, (![0, 0, 0, 0] : Fin 4 → Nat) a + S6x1x256x256.size a ≤ S6x9x256x256.size a
  h_S6x1x256x256 : 0 < S6x1x256x256.numel
  shapeCasts_S6x1x256x256_S6x256x256 : S6x1x256x256.ShapeCasts S6x256x256
  shapeCasts_S6x256x256_S6x1x256x256 : S6x256x256.ShapeCasts S6x1x256x256
  inb_S6x258x258_S6x256x256_0_0_1 : ∀ a, (![0, 0, 1] : Fin 3 → Nat) a + S6x256x256.size a ≤ S6x258x258.size a
  inb_S6x9x256x256_S6x1x256x256_0_1_0_0 : ∀ a, (![0, 1, 0, 0] : Fin 4 → Nat) a + S6x1x256x256.size a ≤ S6x9x256x256.size a
  inb_S6x258x258_S6x256x256_0_0_2 : ∀ a, (![0, 0, 2] : Fin 3 → Nat) a + S6x256x256.size a ≤ S6x258x258.size a
  inb_S6x9x256x256_S6x1x256x256_0_2_0_0 : ∀ a, (![0, 2, 0, 0] : Fin 4 → Nat) a + S6x1x256x256.size a ≤ S6x9x256x256.size a
  inb_S6x258x258_S6x256x256_0_1_0 : ∀ a, (![0, 1, 0] : Fin 3 → Nat) a + S6x256x256.size a ≤ S6x258x258.size a
  inb_S6x9x256x256_S6x1x256x256_0_3_0_0 : ∀ a, (![0, 3, 0, 0] : Fin 4 → Nat) a + S6x1x256x256.size a ≤ S6x9x256x256.size a
  inb_S6x9x256x256_S6x1x256x256_0_4_0_0 : ∀ a, (![0, 4, 0, 0] : Fin 4 → Nat) a + S6x1x256x256.size a ≤ S6x9x256x256.size a
  inb_S6x258x258_S6x256x256_0_1_2 : ∀ a, (![0, 1, 2] : Fin 3 → Nat) a + S6x256x256.size a ≤ S6x258x258.size a
  inb_S6x9x256x256_S6x1x256x256_0_5_0_0 : ∀ a, (![0, 5, 0, 0] : Fin 4 → Nat) a + S6x1x256x256.size a ≤ S6x9x256x256.size a
  inb_S6x258x258_S6x256x256_0_2_0 : ∀ a, (![0, 2, 0] : Fin 3 → Nat) a + S6x256x256.size a ≤ S6x258x258.size a
  inb_S6x9x256x256_S6x1x256x256_0_6_0_0 : ∀ a, (![0, 6, 0, 0] : Fin 4 → Nat) a + S6x1x256x256.size a ≤ S6x9x256x256.size a
  inb_S6x258x258_S6x256x256_0_2_1 : ∀ a, (![0, 2, 1] : Fin 3 → Nat) a + S6x256x256.size a ≤ S6x258x258.size a
  inb_S6x9x256x256_S6x1x256x256_0_7_0_0 : ∀ a, (![0, 7, 0, 0] : Fin 4 → Nat) a + S6x1x256x256.size a ≤ S6x9x256x256.size a
  inb_S6x258x258_S6x256x256_0_2_2 : ∀ a, (![0, 2, 2] : Fin 3 → Nat) a + S6x256x256.size a ≤ S6x258x258.size a
  inb_S6x9x256x256_S6x1x256x256_0_8_0_0 : ∀ a, (![0, 8, 0, 0] : Fin 4 → Nat) a + S6x1x256x256.size a ≤ S6x9x256x256.size a
  shapeCasts_S288x9x256x256_S2592x256x256 : S288x9x256x256.ShapeCasts S2592x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x256x256.size a ≤ S288x256x256.size a
  hwx0_0 : ∀ i : grid0.Coords, EltTy.bits .f32 = 32 ∨ (Rect.block (s := S288x256x256) S6x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x9x256x256.size a ≤ S288x9x256x256.size a
  hwx0_1 : ∀ i : grid0.Coords, EltTy.bits .f32 = 32 ∨ (Rect.block (s := S288x9x256x256) S6x9x256x256.size (cc0_transform_1 i) (hinb0_1 i)).WholeWords (EltTy.packing .f32)

variable [Facts₀]

abbrev win0_0 : Pipeline.Window sig grid0 :=
  Pipeline.Window.ofSpec (Memref.whole main_arg0) S6x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6x9x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S288x256x256 : Shape := ⟨3, ![288, 256, 256]⟩
abbrev S_ : Shape := ⟨0, ![]⟩
abbrev S288x258x258 : Shape := ⟨3, ![288, 258, 258]⟩
abbrev S288x1x256x256 : Shape := ⟨4, ![288, 1, 256, 256]⟩
abbrev S288x9x256x256 : Shape := ⟨4, ![288, 9, 256, 256]⟩
abbrev S2592x256x256 : Shape := ⟨3, ![2592, 256, 256]⟩

abbrev nBuf : Space → Nat
  | .hbm => 24
  | .vmem => 0
  | .smem => 0
  | _ => 0

abbrev bufTy : (tb : Table) → Fin (tcTables nBuf tb) → BufTy
  | .hbm, ⟨0, _⟩ => ⟨S288x256x256, .f32⟩
  | .hbm, ⟨1, _⟩ => ⟨S_, .i32⟩
  | .hbm, ⟨2, _⟩ => ⟨S_, .f32⟩
  | .hbm, ⟨3, _⟩ => ⟨S288x258x258, .f32⟩
  | .hbm, ⟨4, _⟩ => ⟨S288x256x256, .f32⟩
  | .hbm, ⟨5, _⟩ => ⟨S288x256x256, .f32⟩
  | .hbm, ⟨6, _⟩ => ⟨S288x256x256, .f32⟩
  | .hbm, ⟨7, _⟩ => ⟨S288x256x256, .f32⟩
  | .hbm, ⟨8, _⟩ => ⟨S288x256x256, .f32⟩
  | .hbm, ⟨9, _⟩ => ⟨S288x256x256, .f32⟩
  | .hbm, ⟨10, _⟩ => ⟨S288x256x256, .f32⟩
  | .hbm, ⟨11, _⟩ => ⟨S288x256x256, .f32⟩
  | .hbm, ⟨12, _⟩ => ⟨S288x256x256, .f32⟩
  | .hbm, ⟨13, _⟩ => ⟨S288x1x256x256, .f32⟩
  | .hbm, ⟨14, _⟩ => ⟨S288x1x256x256, .f32⟩
  | .hbm, ⟨15, _⟩ => ⟨S288x1x256x256, .f32⟩
  | .hbm, ⟨16, _⟩ => ⟨S288x1x256x256, .f32⟩
  | .hbm, ⟨17, _⟩ => ⟨S288x1x256x256, .f32⟩
  | .hbm, ⟨18, _⟩ => ⟨S288x1x256x256, .f32⟩
  | .hbm, ⟨19, _⟩ => ⟨S288x1x256x256, .f32⟩
  | .hbm, ⟨20, _⟩ => ⟨S288x1x256x256, .f32⟩
  | .hbm, ⟨21, _⟩ => ⟨S288x1x256x256, .f32⟩
  | .hbm, ⟨22, _⟩ => ⟨S288x9x256x256, .f32⟩
  | .hbm, ⟨23, _⟩ => ⟨S2592x256x256, .f32⟩
  | _, _ => ⟨S288x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  pads_S288x256x256_S288x258x258_000_110_110 : S288x256x256.Pads (![0, 1, 1] : Fin 3 → Nat) ![0, 1, 1] ![0, 0, 0] S288x258x258
  h_S_ : 0 < S_.numel
  slices_S288x258x258_S288x256x256_0_0_0 : S288x258x258.Slices ![0, 0, 0] S288x256x256
  slices_S288x258x258_S288x256x256_0_0_1 : S288x258x258.Slices ![0, 0, 1] S288x256x256
  slices_S288x258x258_S288x256x256_0_0_2 : S288x258x258.Slices ![0, 0, 2] S288x256x256
  slices_S288x258x258_S288x256x256_0_1_0 : S288x258x258.Slices ![0, 1, 0] S288x256x256
  slices_S288x258x258_S288x256x256_0_1_1 : S288x258x258.Slices ![0, 1, 1] S288x256x256
  slices_S288x258x258_S288x256x256_0_1_2 : S288x258x258.Slices ![0, 1, 2] S288x256x256
  slices_S288x258x258_S288x256x256_0_2_0 : S288x258x258.Slices ![0, 2, 0] S288x256x256
  slices_S288x258x258_S288x256x256_0_2_1 : S288x258x258.Slices ![0, 2, 1] S288x256x256
  slices_S288x258x258_S288x256x256_0_2_2 : S288x258x258.Slices ![0, 2, 2] S288x256x256
  bcast_S288x256x256_S288x1x256x256_0_2_3 : S288x256x256.BroadcastsInDim S288x1x256x256 (![0, 2, 3] : Fin 3 → Fin S288x1x256x256.rank)
  concatenates_S288x1x256x256_S288x1x256x256_S288x1x256x256_S288x1x256x256_S288x1x256x256_S288x1x256x256_S288x1x256x256_S288x1x256x256_S288x1x256x256_S288x9x256x256_d1 : Shape.Concatenates [S288x1x256x256, S288x1x256x256, S288x1x256x256, S288x1x256x256, S288x1x256x256, S288x1x256x256, S288x1x256x256, S288x1x256x256, S288x1x256x256] S288x9x256x256 1
  shapeCasts_S288x9x256x256_S2592x256x256 : S288x9x256x256.ShapeCasts S2592x256x256

variable [Facts₀]

class Facts : Prop extends Facts₀ where

variable [Facts]
-- ==== Proof.Spec.lean ====
/-
  The function both programs compute, stated once over plain indices.

  For a stack of `C` images `x[c]` of 256 × 256 entries and a border value `z`:
    * `bordered x z` is the stack of 258 × 258 images with `x[c]` in rows and columns 1 … 256 and `z` on the
      one-entry border around it;
    * `windows p` takes from each 258 × 258 image its nine 256 × 256 windows: window `s = 3·dy + dx`
      (`dy, dx ∈ {0, 1, 2}`) starts at row `dy` and column `dx`, so its entry `(h, w)` is `p[c][dy + h][dx + w]`;
    * `shifted x z = windows (bordered x z)`: entry `(c, s, h, w)` is `x[c][dy + h − 1][dx + w − 1]` where that
      position exists and `z` where it falls off the image.
  The channel axis plays no part in any of this, so the same definitions serve a block of 6 channels and the
  whole stack of 288; `shifted_restrict` says that the block's result is the stack's result on the block's channels.
-/
import Idealize.ShloMosaic.Lib.ValueIdx

noncomputable section

namespace Cert.Shift

open Idealize.ShloMosaic Idealize.ShloMosaic.ValueIdx

variable {α : Type}

/-- `x` with a border of `z`, one entry wide, around each image. -/
def bordered {C : Nat} (x : (⟨3, ![C, 256, 256]⟩ : Shape).Idx → α) (z : α) :
    (⟨3, ![C, 258, 258]⟩ : Shape).Idx → α := fun j =>
  if h : (1 ≤ (j 1).val ∧ (j 1).val ≤ 256) ∧ (1 ≤ (j 2).val ∧ (j 2).val ≤ 256) then
    x (ix3 (n0 := C) ⟨(j 0).val, (j 0).isLt⟩ ⟨(j 1).val - 1, by omega⟩ ⟨(j 2).val - 1, by omega⟩)
  else z

/-- The nine 256 × 256 windows of each 258 × 258 image: window `s` starts at row `s / 3`, column `s % 3`. -/
def windows {C : Nat} (p : (⟨3, ![C, 258, 258]⟩ : Shape).Idx → α) :
    (⟨4, ![C, 9, 256, 256]⟩ : Shape).Idx → α := fun j =>
  p (ix3 (n0 := C) ⟨(j 0).val, (j 0).isLt⟩
    ⟨(j 1).val / 3 + (j 2).val, by
      have h1 : (j 1).val < 9 := (j 1).isLt
      have h2 : (j 2).val < 256 := (j 2).isLt
      omega⟩
    ⟨(j 1).val % 3 + (j 3).val, by
      have h3 : (j 3).val < 256 := (j 3).isLt
      omega⟩)

/-- Entry `(c, 3·dy + dx, h, w)` is `x[c][dy + h − 1][dx + w − 1]`, or `z` off the image. -/
def shifted {C : Nat} (x : (⟨3, ![C, 256, 256]⟩ : Shape).Idx → α) (z : α) :
    (⟨4, ![C, 9, 256, 256]⟩ : Shape).Idx → α :=
  windows (bordered x z)

/-- The bordered stack read at coordinates: inside the border it is `x` one row up and one column left. -/
theorem bordered_inside {C : Nat} (x : (⟨3, ![C, 256, 256]⟩ : Shape).Idx → α) (z : α)
    (j : (⟨3, ![C, 258, 258]⟩ : Shape).Idx) (k : (⟨3, ![C, 256, 256]⟩ : Shape).Idx)
    (h0 : (j 0).val = (k 0).val) (h1 : (j 1).val = 1 + (k 1).val) (h2 : (j 2).val = 1 + (k 2).val) :
    bordered x z j = x k := by
  have k1 : (k 1).val < 256 := (k 1).isLt
  have k2 : (k 2).val < 256 := (k 2).isLt
  unfold bordered
  rw [dif_pos (by omega)]
  refine congrArg x (funext fun a => Fin.ext ?_)
  match a with
  | ⟨0, _⟩ => exact h0
  | ⟨1, _⟩ => show (j 1).val - 1 = (k 1).val; omega
  | ⟨2, _⟩ => show (j 2).val - 1 = (k 2).val; omega

/-- On the border it is `z`. -/
theorem bordered_border {C : Nat} (x : (⟨3, ![C, 256, 256]⟩ : Shape).Idx → α) (z : α)
    (j : (⟨3, ![C, 258, 258]⟩ : Shape).Idx)
    (h : ¬((1 ≤ (j 1).val ∧ (j 1).val ≤ 256) ∧ (1 ≤ (j 2).val ∧ (j 2).val ≤ 256))) :
    bordered x z j = z := by
  unfold bordered
  rw [dif_neg h]

/-- Two bordered stacks agree at two indices with the same row and column whenever the images agree at the
    positions those indices read: bordering does not look at the channel. -/
theorem bordered_congr {C C' : Nat} (x : (⟨3, ![C, 256, 256]⟩ : Shape).Idx → α)
    (x' : (⟨3, ![C', 256, 256]⟩ : Shape).Idx → α) (z : α)
    (j : (⟨3, ![C, 258, 258]⟩ : Shape).Idx) (j' : (⟨3, ![C', 258, 258]⟩ : Shape).Idx)
    (h1 : (j 1).val = (j' 1).val) (h2 : (j 2).val = (j' 2).val)
    (hx : ∀ (k : (⟨3, ![C, 256, 256]⟩ : Shape).Idx) (k' : (⟨3, ![C', 256, 256]⟩ : Shape).Idx),
      (k 0).val = (j 0).val → (k' 0).val = (j' 0).val → (k 1).val = (k' 1).val → (k 2).val = (k' 2).val →
        x k = x' k') :
    bordered x z j = bordered x' z j' := by
  unfold bordered
  by_cases h : (1 ≤ (j 1).val ∧ (j 1).val ≤ 256) ∧ (1 ≤ (j 2).val ∧ (j 2).val ≤ 256)
  · have h' : (1 ≤ (j' 1).val ∧ (j' 1).val ≤ 256) ∧ (1 ≤ (j' 2).val ∧ (j' 2).val ≤ 256) := by omega
    rw [dif_pos h, dif_pos h']
    exact hx _ _ rfl rfl (by show (j 1).val - 1 = (j' 1).val - 1; omega) (by show (j 2).val - 1 = (j' 2).val - 1; omega)
  · have h' : ¬((1 ≤ (j' 1).val ∧ (j' 1).val ≤ 256) ∧ (1 ≤ (j' 2).val ∧ (j' 2).val ≤ 256)) := by omega
    rw [dif_neg h, dif_neg h']

/-- The shifted copies of a block of channels are the stack's shifted copies on those channels: if the block
    `x'` holds channels `o, o + 1, …` of `x`, then entry `(c', s, h, w)` of the block's result is entry
    `(o + c', s, h, w)` of the stack's. -/
theorem shifted_restrict {C C' : Nat} (x : (⟨3, ![C, 256, 256]⟩ : Shape).Idx → α)
    (x' : (⟨3, ![C', 256, 256]⟩ : Shape).Idx → α) (z : α) (o : Nat)
    (hx : ∀ (k' : (⟨3, ![C', 256, 256]⟩ : Shape).Idx) (k : (⟨3, ![C, 256, 256]⟩ : Shape).Idx),
      (k 0).val = o + (k' 0).val → (k 1).val = (k' 1).val → (k 2).val = (k' 2).val → x' k' = x k)
    (y : (⟨4, ![C', 9, 256, 256]⟩ : Shape).Idx) (i : (⟨4, ![C, 9, 256, 256]⟩ : Shape).Idx)
    (h0 : (i 0).val = o + (y 0).val) (h1 : (i 1).val = (y 1).val) (h2 : (i 2).val = (y 2).val)
    (h3 : (i 3).val = (y 3).val) :
    shifted x' z y = shifted x z i := by
  unfold shifted windows
  refine bordered_congr x' x z _ _ ?_ ?_ ?_
  · show (y 1).val / 3 + (y 2).val = (i 1).val / 3 + (i 2).val; omega
  · show (y 1).val % 3 + (y 3).val = (i 1).val % 3 + (i 3).val; omega
  · intro k' k e' e e1 e2
    refine hx k' k ?_ e1.symm e2.symm
    have a : (k' 0).val = (y 0).val := e'
    have b : (k 0).val = (i 0).val := e
    omega

end Cert.Shift

end
-- ==== Proof.RefSide.lean ====
/-
  The reference, read index by index.

  Its program pads the stack of images with a border of the padding value (the integer 0 converted to a float),
  takes the nine slices `[dy : dy + 256, dx : dx + 256]` of the padded stack in the order `dy` outer, `dx` inner,
  gives each a unit axis, and joins them along that axis. Read at `(c, s, h, w)` the join is slice `s` at
  `(c, h, w)`, which is the padded stack at `(c, s / 3 + h, s % 3 + w)`: exactly `Cert.Shift.shifted`.
-/
import proofs.«177418_j89936615179047_2_alg».proof.Proof.Gen.ReferenceIdeal.Read
import proofs.«177418_j89936615179047_2_alg».proof.Proof.Spec
import Idealize.ShloMosaic.Lib.KernelVsHost
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.Shift

variable {F : FTy → Type} [FloatOps F]

/-- The padding value: the one entry of the rank-zero operand of the pad. -/
abbrev padValue : Elt F .f32 := val_main_call0_v0 (F := F) (Shape.Idx.first h_S_)

/-- The padded stack is the bordered stack: rows and columns 1 … 256 of each padded image are the image, every
    other entry is the padding value. -/
theorem padded_eq (x : S288x256x256.Idx → Elt F .f32) :
    val_main_v0 (F := F) x = bordered x (padValue (F := F)) := by
  funext j
  have j1 : (j 1).val < 258 := (j 1).isLt
  have j2 : (j 2).val < 258 := (j 2).isLt
  unfold val_main_v0
  by_cases h : (1 ≤ (j 1).val ∧ (j 1).val ≤ 256) ∧ (1 ≤ (j 2).val ∧ (j 2).val ≤ 256)
  · let k : S288x256x256.Idx := ix3 (n0 := 288) ⟨(j 0).val, (j 0).isLt⟩ ⟨(j 1).val - 1, by omega⟩ ⟨(j 2).val - 1, by omega⟩
    rw [bordered_inside x _ j k rfl (by show (j 1).val = 1 + ((j 1).val - 1); omega)
      (by show (j 2).val = 1 + ((j 2).val - 1); omega)]
    refine pad_apply_of_inside _ _ _ x _ _ _ j k (fun a => ?_)
    match a with
    | ⟨0, _⟩ => show (j 0).val = 0 + (j 0).val * (0 + 1); omega
    | ⟨1, _⟩ => show (j 1).val = 1 + ((j 1).val - 1) * (0 + 1); omega
    | ⟨2, _⟩ => show (j 2).val = 1 + ((j 2).val - 1) * (0 + 1); omega
  · rw [bordered_border x _ j h]
    by_cases h1 : 1 ≤ (j 1).val ∧ (j 1).val ≤ 256
    · refine pad_apply_of_not_inside _ _ _ x _ _ _ j (2 : Fin 3) ?_
      show ¬(1 ≤ (j 2).val ∧ ((j 2).val - 1) % (0 + 1) = 0 ∧ ((j 2).val - 1) / (0 + 1) < 256)
      omega
    · refine pad_apply_of_not_inside _ _ _ x _ _ _ j (1 : Fin 3) ?_
      show ¬(1 ≤ (j 1).val ∧ ((j 1).val - 1) % (0 + 1) = 0 ∧ ((j 1).val - 1) / (0 + 1) < 256)
      omega

/-- The padded-stack index that entry `(c, ·, h, w)` of the slice starting at row `dy`, column `dx` reads:
    `(c, dy + h, dx + w)`. -/
abbrev corner (dy dx : Nat) (hy : dy ≤ 2) (hx : dx ≤ 2) (i : S288x1x256x256.Idx) : S288x258x258.Idx :=
  ix3 (n0 := 288) ⟨(i 0).val, (i 0).isLt⟩
    ⟨dy + (i 2).val, by have h2 : (i 2).val < 256 := (i 2).isLt; omega⟩
    ⟨dx + (i 3).val, by have h3 : (i 3).val < 256 := (i 3).isLt; omega⟩

/-- A slice of a padded stack `p` starting at row `dy` and column `dx`, given a unit axis after the channel,
    read at `(c, ·, h, w)`: the slice reads `p` at its offsets plus the index, and the unit axis is dropped. -/
theorem slice_apply (dy dx : Nat) (hy : dy ≤ 2) (hx : dx ≤ 2)
    (hs : S288x258x258.Slices (![0, dy, dx] : Fin 3 → Nat) S288x256x256)
    (p : S288x258x258.Idx → Elt F .f32) (i : S288x1x256x256.Idx) :
    broadcastInDim S288x1x256x256 ![0, 2, 3] bcast_S288x256x256_S288x1x256x256_0_2_3
      (extractStridedSlice S288x256x256 ![0, dy, dx] p hs) i = p (corner dy dx hy hx i) := by
  have i2 : (i 2).val < 256 := (i 2).isLt
  have i3 : (i 3).val < 256 := (i 3).isLt
  let k : S288x256x256.Idx := ix3 (n0 := 288) ⟨(i 0).val, (i 0).isLt⟩ ⟨(i 2).val, i2⟩ ⟨(i 3).val, i3⟩
  rw [broadcastInDim_apply _ bcast_S288x256x256_S288x1x256x256_0_2_3 _ i k (fun a => match a with
    | ⟨0, _⟩ => by show (i 0).val = if (288 : Nat) = 1 then 0 else (i 0).val; rw [if_neg (by decide)]
    | ⟨1, _⟩ => by show (i 2).val = if (256 : Nat) = 1 then 0 else (i 2).val; rw [if_neg (by decide)]
    | ⟨2, _⟩ => by show (i 3).val = if (256 : Nat) = 1 then 0 else (i 3).val; rw [if_neg (by decide)])]
  exact extractStridedSlice_apply ![0, dy, dx] p hs k (corner dy dx hy hx i) (fun a => match a with
    | ⟨0, _⟩ => by show (i 0).val = 0 + (i 0).val; omega
    | ⟨1, _⟩ => rfl
    | ⟨2, _⟩ => rfl)

/-- The join of the nine slices along the unit axis, read at `(c, s, h, w)`, is slice `s` at `(c, 0, h, w)`, that is
    the bordered stack at `(c, s / 3 + h, s % 3 + w)`: the reference computes `shifted`. -/
theorem joined_eq (x : S288x256x256.Idx → Elt F .f32) :
    val_main_v19 (F := F) x = shifted x (padValue (F := F)) := by
  funext j
  have j1 : (j 1).val < 9 := (j 1).isLt
  have j2 : (j 2).val < 256 := (j 2).isLt
  have j3 : (j 3).val < 256 := (j 3).isLt
  let i : S288x1x256x256.Idx := ix4 (n0 := 288) (n1 := 1) ⟨(j 0).val, (j 0).isLt⟩ ⟨0, by omega⟩ ⟨(j 2).val, j2⟩ ⟨(j 3).val, j3⟩
  have hi : ∀ b : Fin 4, b.cast rfl ≠ (1 : Fin 4) → (i b).val = (j (b.cast rfl)).val := fun b hb =>
    match b, hb with
    | ⟨0, _⟩, _ => rfl
    | ⟨1, _⟩, hb => absurd rfl hb
    | ⟨2, _⟩, _ => rfl
    | ⟨3, _⟩, _ => rfl
  -- slice (dy, dx) at (c, 0, h, w) is the entry of `shifted` whose window number is 3·dy + dx
  have hw : ∀ (dy dx : Nat) (hy : dy ≤ 2) (hx : dx ≤ 2) (hs : S288x258x258.Slices (![0, dy, dx] : Fin 3 → Nat) S288x256x256),
      dy = (j 1).val / 3 → dx = (j 1).val % 3 →
      broadcastInDim S288x1x256x256 ![0, 2, 3] bcast_S288x256x256_S288x1x256x256_0_2_3
        (extractStridedSlice S288x256x256 ![0, dy, dx] (val_main_v0 (F := F) x) hs) i
        = shifted x (padValue (F := F)) j := by
    intro dy dx hy hx hs ey ex
    rw [slice_apply dy dx hy hx hs, padded_eq]
    unfold shifted windows
    refine congrArg _ (funext fun a => Fin.ext ?_)
    match a with
    | ⟨0, _⟩ => rfl
    | ⟨1, _⟩ => show dy + (j 2).val = (j 1).val / 3 + (j 2).val; omega
    | ⟨2, _⟩ => show dx + (j 3).val = (j 1).val % 3 + (j 3).val; omega
  unfold val_main_v19
  -- the joined axis has nine unit pieces: piece `s` starts at position `s`
  rcases (by omega : (j 1).val = 0 ∨ (j 1).val = 1 ∨ (j 1).val = 2 ∨ (j 1).val = 3 ∨ (j 1).val = 4
      ∨ (j 1).val = 5 ∨ (j 1).val = 6 ∨ (j 1).val = 7 ∨ (j 1).val = 8) with h | h | h | h | h | h | h | h | h
  · rw [concatenate_apply_piece (1 : Fin 4) _ _ j 0 (by show 0 < 9; omega) S288x1x256x256 (val_main_v10 (F := F) x) rfl rfl 0 rfl i hi
      (by show 0 + 0 = (j 1).val; omega)]
    exact hw 0 0 (by omega) (by omega) _ (by omega) (by omega)
  · rw [concatenate_apply_piece (1 : Fin 4) _ _ j 1 (by show 1 < 9; omega) S288x1x256x256 (val_main_v11 (F := F) x) rfl rfl 1 rfl i hi
      (by show 1 + 0 = (j 1).val; omega)]
    exact hw 0 1 (by omega) (by omega) _ (by omega) (by omega)
  · rw [concatenate_apply_piece (1 : Fin 4) _ _ j 2 (by show 2 < 9; omega) S288x1x256x256 (val_main_v12 (F := F) x) rfl rfl 2 rfl i hi
      (by show 2 + 0 = (j 1).val; omega)]
    exact hw 0 2 (by omega) (by omega) _ (by omega) (by omega)
  · rw [concatenate_apply_piece (1 : Fin 4) _ _ j 3 (by show 3 < 9; omega) S288x1x256x256 (val_main_v13 (F := F) x) rfl rfl 3 rfl i hi
      (by show 3 + 0 = (j 1).val; omega)]
    exact hw 1 0 (by omega) (by omega) _ (by omega) (by omega)
  · rw [concatenate_apply_piece (1 : Fin 4) _ _ j 4 (by show 4 < 9; omega) S288x1x256x256 (val_main_v14 (F := F) x) rfl rfl 4 rfl i hi
      (by show 4 + 0 = (j 1).val; omega)]
    exact hw 1 1 (by omega) (by omega) _ (by omega) (by omega)
  · rw [concatenate_apply_piece (1 : Fin 4) _ _ j 5 (by show 5 < 9; omega) S288x1x256x256 (val_main_v15 (F := F) x) rfl rfl 5 rfl i hi
      (by show 5 + 0 = (j 1).val; omega)]
    exact hw 1 2 (by omega) (by omega) _ (by omega) (by omega)
  · rw [concatenate_apply_piece (1 : Fin 4) _ _ j 6 (by show 6 < 9; omega) S288x1x256x256 (val_main_v16 (F := F) x) rfl rfl 6 rfl i hi
      (by show 6 + 0 = (j 1).val; omega)]
    exact hw 2 0 (by omega) (by omega) _ (by omega) (by omega)
  · rw [concatenate_apply_piece (1 : Fin 4) _ _ j 7 (by show 7 < 9; omega) S288x1x256x256 (val_main_v17 (F := F) x) rfl rfl 7 rfl i hi
      (by show 7 + 0 = (j 1).val; omega)]
    exact hw 2 1 (by omega) (by omega) _ (by omega) (by omega)
  · rw [concatenate_apply_piece (1 : Fin 4) _ _ j 8 (by show 8 < 9; omega) S288x1x256x256 (val_main_v18 (F := F) x) rfl rfl 8 rfl i hi
      (by show 8 + 0 = (j 1).val; omega)]
    exact hw 2 2 (by omega) (by omega) _ (by omega) (by omega)

end Cert.ReferenceIdeal.RefValue

end
-- ==== Proof.Body.lean ====
/-
  What one grid step of the kernel leaves in its output block.

  The body first fills its scratch buffer of shape [6, 258, 258] with zeros and then stores the step's input
  block `x` of shape [6, 256, 256] at rows and columns 1 … 256: the scratch then holds `bordered x 0`. It then makes
  nine stores into the output block of shape [6, 9, 256, 256]: store `s = 3·dy + dx` fills `[:, s, :, :]` with the
  scratch window `[:, dy : dy + 256, dx : dx + 256]`. Every entry `(c, s, h, w)` of the block is therefore
  `bordered x 0` at `(c, s / 3 + h, s % 3 + w)`, which is `Cert.Shift.shifted x 0`. The nine stores tile the block,
  so the block IS that function.
-/
import proofs.«177418_j89936615179047_2_alg».proof.Proof.Gen.KernelIdeal.Frame
import proofs.«177418_j89936615179047_2_alg».proof.Proof.Spec
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem Idealize.ShloMosaic.ValueIdx Cert.Shift

variable {F : FTy → Type} [FloatOps F]

/-- The value the scratch is filled with: the float whose word is all zeros. -/
abbrev zero : Elt F .f32 := (Scalar.ofBits .f32 0x00000000#32 : F .f32)

theorem hz3 : (![0, 0, 0] : Fin 3 → Nat) = fun _ => 0 := funext fun a => by fin_cases a <;> rfl

/-- The scratch after the zero fill and the store of the input block, as one function of its index: the block
    with a border of zeros. Inside rows and columns 1 … 256 the later store decides; on the border only the
    fill wrote. -/
theorem scratch_eq (x : Vec F S6x256x256 .f32) :
    View.canon
      [(⟨Rect.unit (s := S6x258x258) ![0, 1, 1] S6x256x256.size inb_S6x258x258_S6x256x256_0_1_1, x⟩ : View.Piece (Elt F) S6x258x258 .f32),
        ⟨Rect.unit (s := S6x258x258) ![0, 0, 0] S6x258x258.size inb_S6x258x258_S6x258x258_0_0_0, broadcast S6x258x258 (zero (F := F))⟩]
      = bordered x (zero (F := F)) := by
  funext y
  have y1 : (y 1).val < 258 := (y 1).isLt
  have y2 : (y 2).val < 258 := (y 2).isLt
  by_cases h : (1 ≤ (y 1).val ∧ (y 1).val ≤ 256) ∧ (1 ≤ (y 2).val ∧ (y 2).val ≤ 256)
  · let k : S6x256x256.Idx := ix3 (n0 := 6) ⟨(y 0).val, (y 0).isLt⟩ ⟨(y 1).val - 1, by omega⟩ ⟨(y 2).val - 1, by omega⟩
    have hy : y = (Rect.unit (s := S6x258x258) ![0, 1, 1] S6x256x256.size inb_S6x258x258_S6x256x256_0_1_1).emb k := by
      funext a
      apply Fin.ext
      match a with
      | ⟨0, _⟩ => show (y 0).val = 0 + 1 * (y 0).val; omega
      | ⟨1, _⟩ => show (y 1).val = 1 + 1 * ((y 1).val - 1); omega
      | ⟨2, _⟩ => show (y 2).val = 1 + 1 * ((y 2).val - 1); omega
    rw [bordered_inside x _ y k rfl (by show (y 1).val = 1 + ((y 1).val - 1); omega)
      (by show (y 2).val = 1 + ((y 2).val - 1); omega)]
    have e := View.canon_cons_emb (Val := Elt F)
      (Rect.unit (s := S6x258x258) ![0, 1, 1] S6x256x256.size inb_S6x258x258_S6x256x256_0_1_1) x
      [⟨Rect.unit (s := S6x258x258) ![0, 0, 0] S6x258x258.size inb_S6x258x258_S6x258x258_0_0_0, broadcast S6x258x258 (zero (F := F))⟩] k
    rw [← hy] at e
    exact e
  · rw [bordered_border x _ y h]
    have hm : y ∉ (Rect.unit (s := S6x258x258) ![0, 1, 1] S6x256x256.size inb_S6x258x258_S6x256x256_0_1_1).set := by
      rw [Rect.mem_set_unit]
      intro hall
      have b1 : 1 ≤ (y 1).val ∧ (y 1).val < 1 + 256 := hall 1
      have b2 : 1 ≤ (y 2).val ∧ (y 2).val < 1 + 256 := hall 2
      omega
    rw [View.canon_cons_of_not_mem (Val := Elt F)
      ⟨Rect.unit (s := S6x258x258) ![0, 1, 1] S6x256x256.size inb_S6x258x258_S6x256x256_0_1_1, x⟩
      [⟨Rect.unit (s := S6x258x258) ![0, 0, 0] S6x258x258.size inb_S6x258x258_S6x258x258_0_0_0, broadcast S6x258x258 (zero (F := F))⟩] hm,
      View.canon_unit_zero hz3]
    rfl

/-- One of the nine stores. The stored value is the scratch window starting at row `dy`, column `dx` with a unit
    axis inserted after the channel; it goes to `[:, s, :, :]` of the output block with `s = 3·dy + dx`. At the local
    index `(c, 0, h, w)` it holds the scratch at `(c, dy + h, dx + w)`, and the block index it lands on is
    `(c, s, h, w)`, where `shifted` reads the bordered block at `(c, s / 3 + h, s % 3 + w)`: the same entry. -/
theorem window_piece (v : View sig .tc .vmem S6x258x258 .f32) (x : Vec F S6x256x256 .f32)
    (dy dx s : Nat) (hy : dy ≤ 2) (hx : dx ≤ 2) (hs : s = 3 * dy + dx)
    (inbL : ∀ a, (![0, dy, dx] : Fin 3 → Nat) a + S6x256x256.size a ≤ S6x258x258.size a)
    (inbS : ∀ a, (![0, s, 0, 0] : Fin 4 → Nat) a + S6x1x256x256.size a ≤ S6x9x256x256.size a)
    (hc : S6x256x256.ShapeCasts S6x1x256x256) (y : S6x1x256x256.Idx) :
    shapeCast S6x1x256x256
        (v.readCov
          [(⟨Rect.unit (s := S6x258x258) ![0, 1, 1] S6x256x256.size inb_S6x258x258_S6x256x256_0_1_1, x⟩ : View.Piece (Elt F) S6x258x258 .f32),
            ⟨Rect.unit (s := S6x258x258) ![0, 0, 0] S6x258x258.size inb_S6x258x258_S6x258x258_0_0_0, broadcast S6x258x258 (zero (F := F))⟩]
          (Rect.unit (s := S6x258x258) ![0, dy, dx] S6x256x256.size inbL).toLoadRect) hc y
      = shifted x (zero (F := F)) ((Rect.unit (s := S6x9x256x256) ![0, s, 0, 0] S6x1x256x256.size inbS).emb y) := by
  have y0 : (y 0).val < 6 := (y 0).isLt
  have y1 : (y 1).val < 1 := (y 1).isLt
  have y2 : (y 2).val < 256 := (y 2).isLt
  have y3 : (y 3).val < 256 := (y 3).isLt
  let k : S6x256x256.Idx := ix3 (n0 := 6) ⟨(y 0).val, y0⟩ ⟨(y 2).val, y2⟩ ⟨(y 3).val, y3⟩
  rw [View.readCov_eq_canon', scratch_eq]
  rw [shapeCast_apply _ hc y k (by
    rewrite [Shape.rowMajor_val_three, Shape.rowMajor_val_four]
    show ((y 0).val * 256 + (y 2).val) * 256 + (y 3).val = (((y 0).val * 1 + (y 1).val) * 256 + (y 2).val) * 256 + (y 3).val
    omega)]
  unfold shifted windows
  refine congrArg (bordered x (zero (F := F))) (funext fun a => Fin.ext ?_)
  match a with
  | ⟨0, _⟩ => show 0 + 1 * (y 0).val = 0 + 1 * (y 0).val; rfl
  | ⟨1, _⟩ => show dy + 1 * (y 2).val = (s + 1 * (y 1).val) / 3 + (0 + 1 * (y 2).val); omega
  | ⟨2, _⟩ => show dx + 1 * (y 3).val = (s + 1 * (y 1).val) % 3 + (0 + 1 * (y 3).val); omega

/-- THE BLOCK a grid step leaves: whatever staging buffers and scratch the body is given, and whatever they
    held, its nine stores leave in the output block the shifted copies of the input block `x`. Each store's
    value restricts `shifted x 0` to the store's rectangle (`window_piece`), and the nine rectangles tile the
    block, so the block read back is that function. -/
theorem out_eq (c : Dev nD) (i : grid0.Coords) (a1 : Memref sig .tc .vmem S6x256x256 .f32) (h1 : a1.IsWhole)
    (a2 : Memref sig .tc .vmem S6x9x256x256 .f32) (h2 : a2.IsWhole)
    (a3 : Memref sig .tc .vmem S6x258x258 .f32) (h3 : a3.IsWhole) (x : Vec F S6x256x256 .f32) :
    out0_A_1 c i a1 h1 a2 h2 a3 h3 x = shifted x (zero (F := F)) := by
  unfold out0_A_1
  rw [View.read_writes_eq_canon _ _ _ (cover0_A_1 c i a1 h1 a2 h2 a3 h3 x)]
  funext y
  refine View.canon_apply_of_pieces (shifted x (zero (F := F))) _ ?_ y (cover0_A_1 c i a1 h1 a2 h2 a3 h3 x y)
  unfold kernelRun0_A
  dsimp only
  sl_unfold_words
  unfold k0_pay1 k0_pay2 k0_pay3 k0_pay4 k0_pay5 k0_pay6 k0_pay7 k0_pay8 k0_pay9 k0_pay10 k0_pay11
  simp only [View.readAt_eq_ld, h1.read_unread, View.ld_unit_zero (S := S6x256x256) hz3, shapeCast_self]
  intro p hp
  simp only [List.mem_cons, List.mem_nil_iff, or_false] at hp
  rcases hp with rfl | rfl | rfl | rfl | rfl | rfl | rfl | rfl | rfl
  · exact fun y' => window_piece a3.view x 2 2 8 (by omega) (by omega) rfl inb_S6x258x258_S6x256x256_0_2_2
      inb_S6x9x256x256_S6x1x256x256_0_8_0_0 shapeCasts_S6x256x256_S6x1x256x256 y'
  · exact fun y' => window_piece a3.view x 2 1 7 (by omega) (by omega) rfl inb_S6x258x258_S6x256x256_0_2_1
      inb_S6x9x256x256_S6x1x256x256_0_7_0_0 shapeCasts_S6x256x256_S6x1x256x256 y'
  · exact fun y' => window_piece a3.view x 2 0 6 (by omega) (by omega) rfl inb_S6x258x258_S6x256x256_0_2_0
      inb_S6x9x256x256_S6x1x256x256_0_6_0_0 shapeCasts_S6x256x256_S6x1x256x256 y'
  · exact fun y' => window_piece a3.view x 1 2 5 (by omega) (by omega) rfl inb_S6x258x258_S6x256x256_0_1_2
      inb_S6x9x256x256_S6x1x256x256_0_5_0_0 shapeCasts_S6x256x256_S6x1x256x256 y'
  · exact fun y' => window_piece a3.view x 1 1 4 (by omega) (by omega) rfl inb_S6x258x258_S6x256x256_0_1_1
      inb_S6x9x256x256_S6x1x256x256_0_4_0_0 shapeCasts_S6x256x256_S6x1x256x256 y'
  · exact fun y' => window_piece a3.view x 1 0 3 (by omega) (by omega) rfl inb_S6x258x258_S6x256x256_0_1_0
      inb_S6x9x256x256_S6x1x256x256_0_3_0_0 shapeCasts_S6x256x256_S6x1x256x256 y'
  · exact fun y' => window_piece a3.view x 0 2 2 (by omega) (by omega) rfl inb_S6x258x258_S6x256x256_0_0_2
      inb_S6x9x256x256_S6x1x256x256_0_2_0_0 shapeCasts_S6x256x256_S6x1x256x256 y'
  · exact fun y' => window_piece a3.view x 0 1 1 (by omega) (by omega) rfl inb_S6x258x258_S6x256x256_0_0_1
      inb_S6x9x256x256_S6x1x256x256_0_1_0_0 shapeCasts_S6x256x256_S6x1x256x256 y'
  · exact fun y' => window_piece a3.view x 0 0 0 (by omega) (by omega) rfl inb_S6x258x258_S6x256x256_0_0_0
      inb_S6x9x256x256_S6x1x256x256_0_0_0_0 shapeCasts_S6x256x256_S6x1x256x256 y'

end Cert.KernelIdeal.Body

end
-- ==== Proof.KernelValue.lean ====
/-
  The kernel's whole run, read as a value.

  The grid has 48 steps; step `t` reads channels `6t … 6t + 5` of the input stack and writes back the block
  `[6t : 6t + 6, :, :, :]` of the [288, 9, 256, 256] result. What step `t` writes is `shifted` of its input block
  (Body.lean), and `shifted` does not mix channels, so it is the block of `shifted` of the whole stack. The 48 blocks
  tile the result array, so after the region the array IS `shifted` of the argument. The one host line after the
  region reshapes [288, 9, 256, 256] to [2592, 256, 256]; the final result is that reshape of `shifted`.
-/
import proofs.«177418_j89936615179047_2_alg».proof.Proof.Gen.KernelIdeal.Frame
import proofs.«177418_j89936615179047_2_alg».proof.Proof.Body
import Idealize.ShloMosaic.Lib.Pipeline.Value
import Idealize.ShloMosaic.Lib.StableHlo.Run
import Idealize.ShloMosaic.Lib.Tactic

noncomputable section

namespace Cert.KernelIdeal.RunValue

open Cert.KernelIdeal Cert.KernelIdeal.Gen
open Idealize.ShloMosaic Idealize.ShloMosaic.TcCoe Idealize.SL.Sem Idealize.ShloMosaic.ValueIdx Cert.Shift
open Idealize.ShloMosaic.Pipeline (Dat)
open Cert.KernelIdeal.Body (zero)

variable {F : FTy → Type} [FloatOps F]
variable (m : (ℓ : Loc nD τ sig) → Buf (Elt F) ℓ) (ρ : Dev nD → PrngReg)

/-- The two index maps over the grid: at step `t` both windows are at block `t` along the channel axis and at
    block 0 along every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- The result of the region as a function of the argument array: the shifted copies of the whole stack. -/
abbrev result (c : Dev nD) : S288x9x256x256.Idx → Elt F .f32 :=
  shifted (C := 288) (V m c main_arg0 : S288x256x256.Idx → Elt F .f32) (zero (F := F))

/-- Step `t`'s input block holds channels `6t … 6t + 5` of the argument. -/
theorem iblk_apply (c : Dev nD) (t : Fin cfg0.N) (k' : S6x256x256.Idx) (k : S288x256x256.Idx)
    (h0 : (k 0).val = 6 * t.val + (k' 0).val) (h1 : (k 1).val = (k' 1).val) (h2 : (k 2).val = (k' 2).val) :
    (iblk m c 0 t : S6x256x256.Idx → Elt F .f32) k' = (V m c main_arg0 : S288x256x256.Idx → Elt F .f32) k := by
  obtain ⟨e0, e1, e2, -, -, -, -⟩ := idx_facts t
  unfold iblk
  rw [View.read_apply]
  show V m c main_arg0 _ = V m c main_arg0 k
  refine congrArg _ (funext fun a => Fin.ext ?_)
  match a with
  | ⟨0, _⟩ => show win0_0.index t (0 : Fin 3) * 6 + 1 * (k' 0).val = (k 0).val; omega
  | ⟨1, _⟩ => show win0_0.index t (1 : Fin 3) * 256 + 1 * (k' 1).val = (k 1).val; omega
  | ⟨2, _⟩ => show win0_0.index t (2 : Fin 3) * 256 + 1 * (k' 2).val = (k 2).val; omega

/-- WHAT STEP `t` WRITES BACK is block `t` of the result. -/
theorem flushed_eq (c : Dev nD) (t : Fin cfg0.N) :
    (dats m 0 c).flushed 1 t = ((cfg0.win 1).blk t).view.read (Elt F) (result m c) := by
  show (cfg0.win 1).cut (grid0.coords t) ((dats m 0 c).after 1 t) = _
  rw [after0_1]
  unfold outsAt0
  rw [Body.out_eq]
  obtain ⟨-, -, -, f0, f1, f2, f3⟩ := idx_facts t
  funext j
  show shifted (iblk m c 0 t : S6x256x256.Idx → Elt F .f32) (zero (F := F)) j
    = result m c (((cfg0.win 1).blk t).view.emb j)
  refine shifted_restrict _ _ _ (6 * t.val) (fun k' k h0 h1 h2 => iblk_apply m c t k' k h0 h1 h2) j _ ?_ ?_ ?_ ?_
  · show win0_1.index t (0 : Fin 4) * 6 + 1 * (j 0).val = 6 * t.val + (j 0).val; omega
  · show win0_1.index t (1 : Fin 4) * 9 + 1 * (j 1).val = (j 1).val; omega
  · show win0_1.index t (2 : Fin 4) * 256 + 1 * (j 2).val = (j 2).val; omega
  · show win0_1.index t (3 : Fin 4) * 256 + 1 * (j 3).val = (j 3).val; omega

/-- An index of the result array is in step `t`'s block iff each coordinate is in the block's range. -/
theorem mem_blk (t : Fin cfg0.N) (i : S288x9x256x256.Idx) :
    i ∈ ((cfg0.win 1).blk t).view.set ↔ ∀ a : Fin 4, win0_1.index t a * S6x9x256x256.size a ≤ (i a).val
      ∧ (i a).val < win0_1.index t a * S6x9x256x256.size a + S6x9x256x256.size a := by
  show i ∈ ((View.whole main_v0).slice (win0_1.rect t)).set ↔ _
  rw [View.set_slice_whole, Rect.mem_set_unit]
  exact Iff.rfl

/-- THE ARRAY after the region: channel `r` is written by step `r / 6`, so every index is covered and the
    array is the result. -/
theorem final (c : Dev nD) : (dats m 0 c).arrAt 1 cfg0.N = result m c :=
  (dats m 0 c).arrAt_eq_of_cover 1 (result m c) (fun t _ => flushed_eq m c t) fun i => by
    have hN : cfg0.N = 48 := N_0
    have i0 : (i 0).val < 288 := (i 0).isLt
    have i1 : (i 1).val < 9 := (i 1).isLt
    have i2 : (i 2).val < 256 := (i 2).isLt
    have i3 : (i 3).val < 256 := (i 3).isLt
    have ht : (i 0).val / 6 < cfg0.N := by rw [hN]; omega
    refine ⟨⟨(i 0).val / 6, ht⟩, flush0_1 _, ?_⟩
    rw [mem_blk]
    obtain ⟨-, -, -, f0, f1, f2, f3⟩ := idx_facts ⟨(i 0).val / 6, ht⟩
    have f0' : win0_1.index ⟨(i 0).val / 6, ht⟩ (0 : Fin 4) = (i 0).val / 6 := f0
    intro a
    match a with
    | ⟨0, _⟩ =>
      show win0_1.index ⟨(i 0).val / 6, ht⟩ (0 : Fin 4) * 6 ≤ (i 0).val
        ∧ (i 0).val < win0_1.index ⟨(i 0).val / 6, ht⟩ (0 : Fin 4) * 6 + 6
      omega
    | ⟨1, _⟩ =>
      show win0_1.index ⟨(i 0).val / 6, ht⟩ (1 : Fin 4) * 9 ≤ (i 1).val
        ∧ (i 1).val < win0_1.index ⟨(i 0).val / 6, ht⟩ (1 : Fin 4) * 9 + 9
      omega
    | ⟨2, _⟩ =>
      show win0_1.index ⟨(i 0).val / 6, ht⟩ (2 : Fin 4) * 256 ≤ (i 2).val
        ∧ (i 2).val < win0_1.index ⟨(i 0).val / 6, ht⟩ (2 : Fin 4) * 256 + 256
      omega
    | ⟨3, _⟩ =>
      show win0_1.index ⟨(i 0).val / 6, ht⟩ (3 : Fin 4) * 256 ≤ (i 3).val
        ∧ (i 3).val < win0_1.index ⟨(i 0).val / 6, ht⟩ (3 : Fin 4) * 256 + 256
      omega

/-- The host line after the region: the reshape of the region's array. -/
theorem tail_eq (c : Dev nD) :
    Pipeline.afterTail₀ cfgs (dats m) 0 (V0 m) [hostOps1] c main_v1
      = shapeCast S2592x256x256 (result m c) shapeCasts_S288x9x256x256_S2592x256x256 := by
  unfold Pipeline.afterTail₀
  show StableHlo.after hostOps1 _ (Proc.devRef .tc main_v1) = _
  after_results
  exact congrArg (fun v : S288x9x256x256.Idx → Elt F .f32 => shapeCast S2592x256x256 v shapeCasts_S288x9x256x256_S2592x256x256)
    ((Pipeline.withArrays_arr spec0 winFacts0.arr_inj c _ _ 1).trans (final m c))

/-- THE RUN, READ: every weakly fair execution ends with the result buffer at the reshape of the shifted copies
    of the argument, and the argument unchanged. -/
theorem run : θ_run defs (onTc (τ := τ) (main (F := F))) ⟨m, fun _ => 0, ρ⟩ fun r => ∀ c : Dev nD,
      r.2.mem ((c.tc : Thread nD τ).loc main_v1)
        = shapeCast S2592x256x256 (result m c) shapeCasts_S288x9x256x256_S2592x256x256
      ∧ r.2.mem ((c.tc : Thread nD τ).loc main_arg0) = m ((c.tc : Thread nD τ).loc main_arg0) :=
  (θ_run defs _ _).mono (fun r h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c)))⟩)
    (run_main m ρ)

end Cert.KernelIdeal.RunValue

end
-- ==== Proof.lean ====
/-
  The kernel copies each of the 288 input images of 256 × 256 entries into nine output images, image
  `3·dy + dx` (`dy, dx ∈ {0, 1, 2}`) being the input moved one row and one column towards the corner `(dy, dx)` of a
  3 × 3 neighbourhood, with zeros where the move leaves the image: entry `(h, w)` of copy `3·dy + dx` of
  image `c` is `x[c][h + dy − 1][w + dx − 1]`, or zero when that position does not exist
  (`Cert.Shift.shifted`, Proof/Spec.lean).

  The kernel does this six channels per grid step through a zero-bordered scratch copy of the step's images
  (Proof/Body.lean), its 48 blocks tile the result (Proof/KernelValue.lean); the reference pads the whole stack,
  slices it nine times and joins the slices (Proof/RefSide.lean). Both then reshape [288, 9, 256, 256] to
  [2592, 256, 256] with the same operation. No arithmetic is done on the entries, so the two results agree for
  all inputs, finite or not; the only values compared are the two spellings of zero: the float whose word is all
  zeros, and the integer 0 converted to a float, both the real number 0.
-/
import proofs.«177418_j89936615179047_2_alg».proof.Defs
import proofs.«177418_j89936615179047_2_alg».proof.Proof.Gen.Kernel
import proofs.«177418_j89936615179047_2_alg».proof.Proof.Gen.Kernel.Frame
import proofs.«177418_j89936615179047_2_alg».proof.Proof.Gen.KernelIdeal
import proofs.«177418_j89936615179047_2_alg».proof.Proof.Gen.KernelIdeal.Frame
import proofs.«177418_j89936615179047_2_alg».proof.Proof.Gen.ReferenceIdeal
import proofs.«177418_j89936615179047_2_alg».proof.Proof.Gen.ReferenceIdeal.Run
import proofs.«177418_j89936615179047_2_alg».proof.Proof.Gen.ReferenceIdeal.Read
import proofs.«177418_j89936615179047_2_alg».proof.Proof.Gen.Pre_finite_inputs
import proofs.«177418_j89936615179047_2_alg».proof.Proof.RefSide
import proofs.«177418_j89936615179047_2_alg».proof.Proof.KernelValue
import Idealize.ShloMosaic.PureOps.Ideal.Laws
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's padding value, the integer 0 converted to a float, and the kernel's fill value, the float
    whose word is all zeros, are both the real number 0. -/
theorem zero_eq : Cert.ReferenceIdeal.RefValue.padValue (F := Ideal) = Cert.KernelIdeal.Body.zero (F := Ideal) := by
  show (((0#32 : BitVec 32).toInt : ℝ) : EReal) = Ideal.ofBits .f32 0x00000000#32
  rw [Ideal.ofBits_zero_f32]
  simp

/-- Both programs end with the same reshape of `shifted` of the argument, bordered with the real number 0. -/
theorem algebraic : Cert.algebraic_KernelIdeal_ReferenceIdeal := by
  intro m ρ m' ρ' _ hagree
  refine ⟨fun c => shapeCast _ (Cert.KernelIdeal.RunValue.result m c) Cert.KernelIdeal.Gen.shapeCasts_S288x9x256x256_S2592x256x256,
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq]
  unfold Cert.ReferenceIdeal.Read.val_main_v20
  rw [Cert.ReferenceIdeal.RefValue.joined_eq, zero_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
